-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S50000 : Shape := ⟨1, ![50000]⟩
abbrev S675000 : Shape := ⟨1, ![675000]⟩
abbrev S_ : Shape := ⟨0, ![]⟩
abbrev S675000x1 : Shape := ⟨2, ![675000, 1]⟩
abbrev S2000x128 : Shape := ⟨2, ![2000, 128]⟩
abbrev S675000x128 : Shape := ⟨2, ![675000, 128]⟩
abbrev S1x128 : Shape := ⟨2, ![1, 128]⟩

abbrev nBuf : Space → Nat
  | .hbm => 88
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S50000, .i32⟩
  | .hbm, ⟨11, _⟩ => ⟨S675000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S675000, .i32⟩
  | .hbm, ⟨29, _⟩ => ⟨S675000, .i1⟩
  | .hbm, ⟨30, _⟩ => ⟨S_, .i32⟩
  | .hbm, ⟨31, _⟩ => ⟨S675000, .i32⟩
  | .hbm, ⟨32, _⟩ => ⟨S675000, .i32⟩
  | .hbm, ⟨33, _⟩ => ⟨S675000, .i32⟩
  | .hbm, ⟨34, _⟩ => ⟨S675000x1, .i32⟩
  | .hbm, ⟨35, _⟩ => ⟨S675000, .f32⟩
  | .hbm, ⟨36, _⟩ => ⟨S_, .i32⟩
  | .hbm, ⟨37, _⟩ => ⟨S675000, .i32⟩
  | .hbm, ⟨38, _⟩ => ⟨S675000, .i1⟩
  | .hbm, ⟨39, _⟩ => ⟨S_, .i32⟩
  | .hbm, ⟨40, _⟩ => ⟨S675000, .i32⟩
  | .hbm, ⟨41, _⟩ => ⟨S675000, .i32⟩
  | .hbm, ⟨42, _⟩ => ⟨S675000, .i32⟩
  | .hbm, ⟨43, _⟩ => ⟨S675000x1, .i32⟩
  | .hbm, ⟨44, _⟩ => ⟨S675000, .f32⟩
  | .hbm, ⟨45, _⟩ => ⟨S675000, .f32⟩
  | .hbm, ⟨46, _⟩ => ⟨S50000x128, .bf16⟩
  | .hbm, ⟨47, _⟩ => ⟨S128x128, .bf16⟩
  | .hbm, ⟨48, _⟩ => ⟨S50000x128, .f32⟩
  | .hbm, ⟨49, _⟩ => ⟨S_, .i32⟩
  | .hbm, ⟨50, _⟩ => ⟨S675000, .i32⟩
  | .hbm, ⟨51, _⟩ => ⟨S675000, .i1⟩
  | .hbm, ⟨52, _⟩ => ⟨S_, .i32⟩
  | .hbm, ⟨53, _⟩ => ⟨S675000, .i32⟩
  | .hbm, ⟨54, _⟩ => ⟨S675000, .i32⟩
  | .hbm, ⟨55, _⟩ => ⟨S675000, .i32⟩
  | .hbm, ⟨56, _⟩ => ⟨S675000x1, .i32⟩
  | .hbm, ⟨57, _⟩ => ⟨S675000x128, .f32⟩
  | .hbm, ⟨58, _⟩ => ⟨S675000x1, .f32⟩
  | .hbm, ⟨59, _⟩ => ⟨S675000x128, .f32⟩
  | .hbm, ⟨60, _⟩ => ⟨S675000x128, .f32⟩
  | .hbm, ⟨61, _⟩ => ⟨S_, .f32⟩
  | .hbm, ⟨62, _⟩ => ⟨S50000x128, .f32⟩
  | .hbm, ⟨63, _⟩ => ⟨S675000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .bf16⟩
  | .hbm, ⟨68, _⟩ => ⟨S128x128, .bf16⟩
  | .hbm, ⟨69, _⟩ => ⟨S50000x128, .f32⟩
  | .hbm, ⟨70, _⟩ => ⟨S_, .i32⟩
  | .hbm, ⟨71, _⟩ => ⟨S675000, .i32⟩
  | .hbm, ⟨72, _⟩ => ⟨S675000, .i1⟩
  | .hbm, ⟨73, _⟩ => ⟨S_, .i32⟩
  | .hbm, ⟨74, _⟩ => ⟨S675000, .i32⟩
  | .hbm, ⟨75, _⟩ => ⟨S675000, .i32⟩
  | .hbm, ⟨76, _⟩ => ⟨S675000, .i32⟩
  | .hbm, ⟨77, _⟩ => ⟨S675000x1, .i32⟩
  | .hbm, ⟨78, _⟩ => ⟨S675000x128, .f32⟩
  | .hbm, ⟨79, _⟩ => ⟨S675000x1, .f32⟩
  | .hbm, ⟨80, _⟩ => ⟨S675000x128, .f32⟩
  | .hbm, ⟨81, _⟩ => ⟨S675000x128, .f32⟩
  | .hbm, ⟨82, _⟩ => ⟨S_, .f32⟩
  | .hbm, ⟨83, _⟩ => ⟨S50000x128, .f32⟩
  | .hbm, ⟨84, _⟩ => ⟨S675000x1, .i32⟩
  | .hbm, ⟨85, _⟩ => ⟨S50000x128, .f32⟩
  | .hbm, ⟨86, _⟩ => ⟨S1x128, .f32⟩
  | .hbm, ⟨87, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S128x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S2000x128_S128x128_S2000x128_1_0_0_1_n_n_wf : DotDims.WF S2000x128 S128x128 S2000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S50000 : Shape := ⟨1, ![50000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x625000, .i32⟩
  | 2 => ⟨S128x128, .f32⟩
  | 3 => ⟨S128, .f32⟩
  | 4 => ⟨S128x128, .f32⟩
  | 5 => ⟨S128, .f32⟩
  | 6 => ⟨S50000x128, .f32⟩
  | 7 => ⟨S1x625000, .i32⟩
  | 8 => ⟨S625000, .i32⟩
  | 9 => ⟨S1x625000, .i32⟩
  | 10 => ⟨S625000, .i32⟩
  | 11 => ⟨S50000, .i32⟩
  | 12 => ⟨S675000, .i32⟩
  | 13 => ⟨S675000, .i32⟩
  | 14 => ⟨S_, .f32⟩
  | 15 => ⟨S675000, .f32⟩
  | 16 => ⟨S_, .f32⟩
  | 17 => ⟨S50000, .f32⟩
  | 18 => ⟨S675000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S675000, .i32⟩
  | 30 => ⟨S675000, .i1⟩
  | 31 => ⟨S_, .i32⟩
  | 32 => ⟨S675000, .i32⟩
  | 33 => ⟨S675000, .i32⟩
  | 34 => ⟨S675000, .i32⟩
  | 35 => ⟨S675000x1, .i32⟩
  | 36 => ⟨S675000, .f32⟩
  | 37 => ⟨S_, .i32⟩
  | 38 => ⟨S675000, .i32⟩
  | 39 => ⟨S675000, .i1⟩
  | 40 => ⟨S_, .i32⟩
  | 41 => ⟨S675000, .i32⟩
  | 42 => ⟨S675000, .i32⟩
  | 43 => ⟨S675000, .i32⟩
  | 44 => ⟨S675000x1, .i32⟩
  | 45 => ⟨S675000, .f32⟩
  | 46 => ⟨S675000, .f32⟩
  | 47 => ⟨S_, .i32⟩
  | 48 => ⟨S675000, .i32⟩
  | 49 => ⟨S675000, .i1⟩
  | 50 => ⟨S_, .i32⟩
  | 51 => ⟨S675000, .i32⟩
  | 52 => ⟨S675000, .i32⟩
  | 53 => ⟨S675000, .i32⟩
  | 54 => ⟨S675000x1, .i32⟩
  | 55 => ⟨S675000x128, .f32⟩
  | 56 => ⟨S675000x1, .f32⟩
  | 57 => ⟨S675000x128, .f32⟩
  | 58 => ⟨S675000x128, .f32⟩
  | 59 => ⟨S_, .f32⟩
  | 60 => ⟨S50000x128, .f32⟩
  | 61 => ⟨S675000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S1x625000, .i32⟩
  | 71 => ⟨S625000, .i32⟩
  | 72 => ⟨S1x625000, .i32⟩
  | 73 => ⟨S625000, .i32⟩
  | 74 => ⟨S50000, .i32⟩
  | 75 => ⟨S675000, .i32⟩
  | 76 => ⟨S675000, .i32⟩
  | 77 => ⟨S_, .f32⟩
  | 78 => ⟨S675000, .f32⟩
  | 79 => ⟨S_, .f32⟩
  | 80 => ⟨S50000, .f32⟩
  | 81 => ⟨S675000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S675000, .i32⟩
  | 93 => ⟨S675000, .i1⟩
  | 94 => ⟨S_, .i32⟩
  | 95 => ⟨S675000, .i32⟩
  | 96 => ⟨S675000, .i32⟩
  | 97 => ⟨S675000, .i32⟩
  | 98 => ⟨S675000x1, .i32⟩
  | 99 => ⟨S675000, .f32⟩
  | 100 => ⟨S_, .i32⟩
  | 101 => ⟨S675000, .i32⟩
  | 102 => ⟨S675000, .i1⟩
  | 103 => ⟨S_, .i32⟩
  | 104 => ⟨S675000, .i32⟩
  | 105 => ⟨S675000, .i32⟩
  | 106 => ⟨S675000, .i32⟩
  | 107 => ⟨S675000x1, .i32⟩
  | 108 => ⟨S675000, .f32⟩
  | 109 => ⟨S675000, .f32⟩
  | 110 => ⟨S_, .i32⟩
  | 111 => ⟨S675000, .i32⟩
  | 112 => ⟨S675000, .i1⟩
  | 113 => ⟨S_, .i32⟩
  | 114 => ⟨S675000, .i32⟩
  | 115 => ⟨S675000, .i32⟩
  | 116 => ⟨S675000, .i32⟩
  | 117 => ⟨S675000x1, .i32⟩
  | 118 => ⟨S675000x128, .f32⟩
  | 119 => ⟨S675000x1, .f32⟩
  | 120 => ⟨S675000x128, .f32⟩
  | 121 => ⟨S675000x128, .f32⟩
  | 122 => ⟨S_, .f32⟩
  | 123 => ⟨S50000x128, .f32⟩
  | 124 => ⟨S675000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf

class Facts : Prop extends Facts₀ where

variable [Facts]
-- ==== Proof.KernelRun.lean ====
/-
  The idealized kernel's run, with its result named.

  The program is four kernel regions among stretches of host operations. Every weakly fair execution terminates, and
  at the end every buffer the program does not scope holds what the last segment boundary holds there: the contents
  obtained by folding the host stretches and, at each region, replacing the region's arrays by what its write-backs
  leave. The result buffer is one of these buffers, so it ends at that fold's value; the six argument arrays end as
  launched.
-/
import proofs.«173843_j1975684956785_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault; the
    result buffer ends at the last boundary's contents, and the arguments as launched. -/
theorem run : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.Gcn.KernelRun

end
-- ==== Proof.Spec.lean ====
/-
  The graph-convolution layer both programs compute, as functions of whole arrays.

  A layer takes node features `x : [50000, 128]`, multiplies them by a weight matrix, and for every node adds up
  the transformed features of its in-neighbours (each node also counted as its own neighbour), each weighted by
  `dinv(src) · dinv(dst)` where `dinv = deg^(-1/2)` of the in-degree counted with the self-loops (and `0` where the
  degree is not positive); a bias row is added and the result clamped below at `0`.
  The edge list with the self-loops appended (`srcs`, `dsts`), the negative-index wrap and the column of start
  indices a gather takes (`wrap`, `col`), the normalisation (`deg`, `dinv`, `norm`), the neighbourhood sum
  (`aggregate`) and the bias-and-clamp tail (`biasRelu`) are spelt here once, in the operations both programs apply to
  them, so that a proof about either program carries them as names and never opens them.
-/
import proofs.«173843_j1975684956785_1_alg».proof.Proof.Gen.KernelIdeal
import proofs.«173843_j1975684956785_1_alg».proof.Proof.Gen.ReferenceIdeal
import Idealize.ShloMosaic.PureOps.Ideal

noncomputable section

namespace Cert.Gcn

open Idealize.ShloMosaic Cert.KernelIdeal Cert.KernelIdeal.Facts₀

variable {F : FTy → Type} [FloatOps F]

/-- Row `0` of the edge list (the sources) followed by every node's own number. -/
def srcs (e : IVec S2x625000 32) : IVec S675000 32 :=
  concatenate S675000 0 [⟨S625000, shapeCast S625000 (extractStridedSlice S1x625000 ![0, 0] e slices_S2x625000_S1x625000_0_0) shapeCasts_S1x625000_S625000⟩, ⟨S50000, iotaInDim S50000 32 0⟩] concatenates_S625000_S50000_S675000_d0

/-- Row `1` of the edge list (the destinations) followed by every node's own number. -/
def dsts (e : IVec S2x625000 32) : IVec S675000 32 :=
  concatenate S675000 0 [⟨S625000, shapeCast S625000 (extractStridedSlice S1x625000 ![1, 0] e slices_S2x625000_S1x625000_1_0) shapeCasts_S1x625000_S625000⟩, ⟨S50000, iotaInDim S50000 32 0⟩] concatenates_S625000_S50000_S675000_d0

/-- A list of node numbers as a column of start indices. -/
def col (v : IVec S675000 32) : IVec S675000x1 32 :=
  broadcastInDim S675000x1 ![0] bcast_S675000_S675000x1_0 v

/-- A negative node number counts from the end (`v + 50000`); the result as a column of start indices. -/
def wrap (v : IVec S675000 32) : IVec S675000x1 32 :=
  col (select (cmpi .slt v (broadcastInDim S675000 ![] bcast_S_S675000 (constantI S_ 32 0#32)))
    (addi v (broadcastInDim S675000 ![] bcast_S_S675000 (constantI S_ 32 50000#32))) v)

/-- The in-degree of every node, each edge and each self-loop counting `1`. -/
def deg (d : IVec S675000 32) : FVec F S50000 .f32 :=
  Host.scatterAdd scatter_S50000_S675000x1_S675000_n_0_0_1
    (broadcastInDim S50000 ![] bcast_S_S50000 (constant (F := F) S_ .f32 0x00000000#32)) (col d)
    (broadcastInDim S675000 ![] bcast_S_S675000 (constant (F := F) S_ .f32 0x3F800000#32))

/-- `deg^(-1/2)` where the degree is positive, `0` elsewhere. -/
def dinv (d : IVec S675000 32) : FVec F S50000 .f32 :=
  select (cmpf .ogt (deg (F := F) d) (broadcastInDim S50000 ![] bcast_S_S50000 (constant (F := F) S_ .f32 0x00000000#32)))
    (Host.rsqrt (deg (F := F) d))
    (broadcastInDim S50000 ![] bcast_S_S50000 (constant (F := F) S_ .f32 0x00000000#32))

/-- The weight of every edge: `dinv` at its source times `dinv` at its destination. -/
def norm (s d : IVec S675000 32) : FVec F S675000 .f32 :=
  mulf (Host.gather gather_S50000_S675000x1_S675000_n_0_n_n_0_1_1 (dinv (F := F) d) (wrap s))
    (Host.gather gather_S50000_S675000x1_S675000_n_0_n_n_0_1_1 (dinv (F := F) d) (wrap d))

/-- The neighbourhood sum: every edge carries its source's row of `xw`, scaled by the edge's weight, into its
    destination's row. -/
def aggregate (xw : FVec F S50000x128 .f32) (s d : IVec S675000 32) (nrm : FVec F S675000 .f32) : FVec F S50000x128 .f32 :=
  Host.scatterAdd scatter_S50000x128_S675000x1_S675000x128_1_0_0_1
    (broadcastInDim S50000x128 ![] bcast_S_S50000x128 (constant (F := F) S_ .f32 0x00000000#32)) (col d)
    (mulf (Host.gather gather_S50000x128_S675000x1_S675000x128_1_0_n_n_0_1_1128 xw (wrap s))
      (broadcastInDim S675000x128 ![0, 1] bcast_S675000x1_S675000x128_0_1 (broadcastInDim S675000x1 ![0] bcast_S675000_S675000x1_0 nrm)))

/-- The layer's tail: the bias row `b : [1, 128]` added to every row, then the maximum with `0`. -/
def biasRelu (raw : FVec F S50000x128 .f32) (b : FVec F S1x128 .f32) : FVec F S50000x128 .f32 :=
  maximumf (addf raw (broadcastInDim S50000x128 ![0, 1] Cert.ReferenceIdeal.Facts₀.bcast_S1x128_S50000x128_0_1 b))
    (broadcastInDim S50000x128 ![] bcast_S_S50000x128 (constant (F := F) S_ .f32 0x00000000#32))

/-- One layer as the reference spells it: the host's product, the neighbourhood sum, the tail over the bias as a
    row. -/
def layer (x : FVec F S50000x128 .f32) (s d : IVec S675000 32) (nrm : FVec F S675000 .f32) (W : FVec F S128x128 .f32)
    (b : FVec F S128 .f32) : FVec F S50000x128 .f32 :=
  biasRelu (aggregate (Host.dotGeneral Cert.ReferenceIdeal.dot_S50000x128_S128x128_S50000x128_1_0_0_1_n_n none x W) s d nrm)
    (broadcastInDim S1x128 ![1] Cert.ReferenceIdeal.Facts₀.bcast_S128_S1x128_1 b)

/-- The two layers, over one edge list and one normalisation. -/
def encoder (x : FVec F S50000x128 .f32) (e : IVec S2x625000 32) (W1 : FVec F S128x128 .f32) (b1 : FVec F S128 .f32)
    (W2 : FVec F S128x128 .f32) (b2 : FVec F S128 .f32) : FVec F S50000x128 .f32 :=
  layer (layer x (srcs e) (dsts e) (norm (F := F) (srcs e) (dsts e)) W1 b1) (srcs e) (dsts e) (norm (F := F) (srcs e) (dsts e)) W2 b2

end Cert.Gcn

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RegionMatmul.lean ====
/-
  The two matrix-product regions, in closed form.

  Each of the two regions computes `o = x · W` for `x : [50000, 128]` and `W : [128, 128]`, one block of 2000 rows of `x`
  at a time: at the grid point whose block row is `r` the left operand's block is rows `2000 r … 2000 r + 1999` of `x`, the
  right operand's one block is all of `W`, and the point writes the block's product back into rows
  `2000 r … 2000 r + 1999` of `o`.

  A row block of a product is the product of the row block: with `x_r(p, k) = x(2000 r + p, k)`,
      `(x · W)(2000 r + p, q) = ∑ k, x(2000 r + p, k) · W(k, q) = ∑ k, x_r(p, k) · W(k, q) = (x_r · W)(p, q)`.
  So what a point writes back is its block of the whole product of the two arrays the region finds; the 25 blocks fill
  the 50000 rows; and the output array ends holding the whole product, which is the value the host's general dot has on
  the same two arrays.
-/
import proofs.«173843_j1975684956785_1_alg».proof.Proof.Gen.KernelIdeal.Frame
import proofs.«173843_j1975684956785_1_alg».proof.Proof.Gen.ReferenceIdeal
import proofs.«173843_j1975684956785_1_alg».proof.Proof.LibMatmul
import Idealize.ShloMosaic.Lib.ValueIdx
import Idealize.ShloMosaic.Lib.Pipeline.Value
import Idealize.ShloMosaic.PureOps.Ideal.Laws
noncomputable section
namespace Cert.Gcn
open Cert.KernelIdeal Cert.KernelIdeal.Gen Idealize.ShloMosaic Idealize.ShloMosaic.TcCoe Idealize.ShloMosaic.ValueIdx Idealize.SL.Sem
open scoped BigOperators
variable (V : (c : Dev nD) → (b : Ref sig .tc) → Buf (Elt Ideal) ((c : Thread nD τ).loc b))

namespace RegionMatmul

/-- The zero offsets, however spelt. -/
theorem origin_zero : (![0, 0] : Fin 2 → Nat) = fun _ => 0 := funext fun a => by fin_cases a <;> rfl

/-- The block's contraction is the plain one: axis 1 of the left operand against axis 0 of the right, no batch axis. -/
theorem dotBlock_eq : Cert.KernelIdeal.dot_S2000x128_S128x128_S2000x128_1_0_0_1_n_n = DotDims.plain 2000 128 128 := rfl

/-- So is the whole arrays'. -/
theorem dotWhole_eq : Cert.ReferenceIdeal.dot_S50000x128_S128x128_S50000x128_1_0_0_1_n_n = DotDims.plain 50000 128 128 := rfl

/-- The whole product at `(i, q)`: the sum over `k` of `l(i, k) · r(k, q)`. -/
theorem wholeProduct_apply (l : Vec Ideal S50000x128 .bf16) (r : Vec Ideal S128x128 .bf16) (i : Fin 50000) (q : Fin 128) :
    Host.dotGeneral (F := Ideal) (φ₁ := .bf16) (φ₂ := .bf16) Cert.ReferenceIdeal.dot_S50000x128_S128x128_S50000x128_1_0_0_1_n_n none l r (ix2 i q)
      = ∑ k : Fin 128, l (ix2 i k) * r (ix2 k q) := by
  rw [dotWhole_eq]
  exact Cert.MatOps.dotGeneral_plain_apply none l r i q

/-! ## Region 0 -/

/-- The block's product at `(p, q)`: the sum over `k` of `x(p, k) · w(k, q)` (the two reshapes are identities and the
    accumulator starts at zero). -/
theorem blockProduct0_apply (x0 : Vec Ideal S2000x128 .bf16) (x1 : Vec Ideal S128x128 .bf16) (p : Fin 2000) (q : Fin 128) :
    k0_pay1 (F := Ideal) x0 x1 (ix2 p q) = ∑ k : Fin 128, x0 (ix2 p k) * x1 (ix2 k q) := by
  unfold k0_pay1
  simp only [shapeCast_self]
  rw [dotBlock_eq]
  exact Cert.MatOps.matmul_plain_zero_apply none x0 x1 p q

/-- The block indices over the grid: the left operand's block row is the output's, every other block index is zero, and
    the output's block row is below 25. -/
theorem blockIndex0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) < 25 :=
  (by decide +kernel : ∀ t : Fin grid0.N, _)

/-- Every one of the 25 block rows of the output is some point's. -/
theorem blockOnto0 : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the whole product of the two arrays the region finds: with `r` the point's
    block row, the block's element `(p, q)` is `∑ k, x(2000 r + p, k) · W(k, q)`, which is the whole product at
    `(2000 r + p, q)`. -/
theorem flushed0_eq (c : Dev nD) (t : Fin cfg0.N) :
    (dat0 (F := Ideal) V c).flushed 2 t = ((cfg0.win 2).blk t).view.read (Elt Ideal)
      (Host.dotGeneral (F := Ideal) (φ₁ := .bf16) (φ₂ := .bf16) Cert.ReferenceIdeal.dot_S50000x128_S128x128_S50000x128_1_0_0_1_n_n none (V c main_v30) (V c main_v31)) := by
  show (cfg0.win 2).cut (grid0.coords t) ((dat0 V c).after 2 t) = _
  rw [after0_2]
  unfold out0_2
  rw [View.canon_unit_zero origin_zero]
  simp only [View.ld_unit_zero (S := S2000x128) origin_zero, View.ld_unit_zero (S := S128x128) origin_zero]
  obtain ⟨e0, e1, e2, e3, e4, e5⟩ := blockIndex0 t
  funext j
  obtain ⟨p, q, rfl⟩ : ∃ (p : Fin 2000) (q : Fin 128), j = ix2 p q := ⟨j 0, j 1, eq_ix2 j⟩
  have hrow : win0_2.index t (0 : Fin 2) * 2000 + p.val < 50000 := by have := p.isLt; omega
  -- the element (p, k) of the left operand's block is the array's element (2000 r + p, k)
  have hx : ∀ k : Fin 128, iblk0 V c 0 t (ix2 p k : S2000x128.Idx)
      = (V c main_v30 : S50000x128.Idx → Elt Ideal .bf16) (ix2 ⟨win0_2.index t (0 : Fin 2) * 2000 + p.val, hrow⟩ k) := fun k => by
    show (V c main_v30 : S50000x128.Idx → Elt Ideal .bf16) (((cfg0.win 0).blk t).view.emb (ix2 p k : S2000x128.Idx)) = _
    refine congrArg (V c main_v30 : S50000x128.Idx → Elt Ideal .bf16) ?_
    funext a; apply Fin.ext
    match a with
    | ⟨0, _⟩ => show win0_0.index t (0 : Fin 2) * 2000 + 1 * p.val = win0_2.index t (0 : Fin 2) * 2000 + p.val; omega
    | ⟨1, _⟩ => show win0_0.index t (1 : Fin 2) * 128 + 1 * k.val = k.val; omega
  -- the right operand's one block is the whole array
  have hw : ∀ k : Fin 128, iblk0 V c 1 t (ix2 k q : S128x128.Idx)
      = (V c main_v31 : S128x128.Idx → Elt Ideal .bf16) (ix2 k q) := fun k => by
    show (V c main_v31 : S128x128.Idx → Elt Ideal .bf16) (((cfg0.win 1).blk t).view.emb (ix2 k q : S128x128.Idx)) = _
    refine congrArg (V c main_v31 : S128x128.Idx → Elt Ideal .bf16) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  -- the output block's element (p, q) sits at (2000 r + p, q)
  have ho : ((cfg0.win 2).blk t).view.emb (ix2 p q : S2000x128.Idx)
      = (ix2 ⟨win0_2.index t (0 : Fin 2) * 2000 + p.val, hrow⟩ q : S50000x128.Idx) := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 128 + 1 * q.val = q.val; omega
  refine (blockProduct0_apply (iblk0 V c 0 t) (iblk0 V c 1 t) p q).trans ?_
  show _ = Host.dotGeneral (F := Ideal) (φ₁ := .bf16) (φ₂ := .bf16) Cert.ReferenceIdeal.dot_S50000x128_S128x128_S50000x128_1_0_0_1_n_n none (V c main_v30) (V c main_v31) (((cfg0.win 2).blk t).view.emb (ix2 p q : S2000x128.Idx))
  rw [ho, wholeProduct_apply]
  exact Finset.sum_congr rfl fun k _ => by rw [hx k, hw k]

/-- An index of the output array is in point `t`'s block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row `i` of the output is in the block of the point whose block row is `i / 2000`: the 25 blocks fill the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockOnto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-! ## Region 2 -/

/-- The block's product at `(p, q)`: the sum over `k` of `x(p, k) · w(k, q)` (the two reshapes are identities and the
    accumulator starts at zero). -/
theorem blockProduct2_apply (x0 : Vec Ideal S2000x128 .bf16) (x1 : Vec Ideal S128x128 .bf16) (p : Fin 2000) (q : Fin 128) :
    k2_pay1 (F := Ideal) x0 x1 (ix2 p q) = ∑ k : Fin 128, x0 (ix2 p k) * x1 (ix2 k q) := by
  unfold k2_pay1
  simp only [shapeCast_self]
  rw [dotBlock_eq]
  exact Cert.MatOps.matmul_plain_zero_apply none x0 x1 p q

/-- The block indices over the grid: the left operand's block row is the output's, every other block index is zero, and
    the output's block row is below 25. -/
theorem blockIndex2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 ∧ win2_2.index t (0 : Fin 2) < 25 :=
  (by decide +kernel : ∀ t : Fin grid2.N, _)

/-- Every one of the 25 block rows of the output is some point's. -/
theorem blockOnto2 : ∀ q0 : Fin 25, ∃ t : Fin cfg2.N, win2_2.index t = ![q0.val, 0] :=
  (by decide +kernel : ∀ q0 : Fin 25, ∃ t : Fin grid2.N, win2_2.index t = ![q0.val, 0])

/-- What point `t` writes back is block `t` of the whole product of the two arrays the region finds: with `r` the point's
    block row, the block's element `(p, q)` is `∑ k, x(2000 r + p, k) · W(k, q)`, which is the whole product at
    `(2000 r + p, q)`. -/
theorem flushed2_eq (c : Dev nD) (t : Fin cfg2.N) :
    (dat2 (F := Ideal) V c).flushed 2 t = ((cfg2.win 2).blk t).view.read (Elt Ideal)
      (Host.dotGeneral (F := Ideal) (φ₁ := .bf16) (φ₂ := .bf16) Cert.ReferenceIdeal.dot_S50000x128_S128x128_S50000x128_1_0_0_1_n_n none (V c main_v48) (V c main_v49)) := by
  show (cfg2.win 2).cut (grid2.coords t) ((dat2 V c).after 2 t) = _
  rw [after2_2]
  unfold out2_2
  rw [View.canon_unit_zero origin_zero]
  simp only [View.ld_unit_zero (S := S2000x128) origin_zero, View.ld_unit_zero (S := S128x128) origin_zero]
  obtain ⟨e0, e1, e2, e3, e4, e5⟩ := blockIndex2 t
  funext j
  obtain ⟨p, q, rfl⟩ : ∃ (p : Fin 2000) (q : Fin 128), j = ix2 p q := ⟨j 0, j 1, eq_ix2 j⟩
  have hrow : win2_2.index t (0 : Fin 2) * 2000 + p.val < 50000 := by have := p.isLt; omega
  -- the element (p, k) of the left operand's block is the array's element (2000 r + p, k)
  have hx : ∀ k : Fin 128, iblk2 V c 0 t (ix2 p k : S2000x128.Idx)
      = (V c main_v48 : S50000x128.Idx → Elt Ideal .bf16) (ix2 ⟨win2_2.index t (0 : Fin 2) * 2000 + p.val, hrow⟩ k) := fun k => by
    show (V c main_v48 : S50000x128.Idx → Elt Ideal .bf16) (((cfg2.win 0).blk t).view.emb (ix2 p k : S2000x128.Idx)) = _
    refine congrArg (V c main_v48 : S50000x128.Idx → Elt Ideal .bf16) ?_
    funext a; apply Fin.ext
    match a with
    | ⟨0, _⟩ => show win2_0.index t (0 : Fin 2) * 2000 + 1 * p.val = win2_2.index t (0 : Fin 2) * 2000 + p.val; omega
    | ⟨1, _⟩ => show win2_0.index t (1 : Fin 2) * 128 + 1 * k.val = k.val; omega
  -- the right operand's one block is the whole array
  have hw : ∀ k : Fin 128, iblk2 V c 1 t (ix2 k q : S128x128.Idx)
      = (V c main_v49 : S128x128.Idx → Elt Ideal .bf16) (ix2 k q) := fun k => by
    show (V c main_v49 : S128x128.Idx → Elt Ideal .bf16) (((cfg2.win 1).blk t).view.emb (ix2 k q : S128x128.Idx)) = _
    refine congrArg (V c main_v49 : S128x128.Idx → Elt Ideal .bf16) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  -- the output block's element (p, q) sits at (2000 r + p, q)
  have ho : ((cfg2.win 2).blk t).view.emb (ix2 p q : S2000x128.Idx)
      = (ix2 ⟨win2_2.index t (0 : Fin 2) * 2000 + p.val, hrow⟩ q : S50000x128.Idx) := by
    funext a; apply Fin.ext
    match a with
    | ⟨0, _⟩ => show win2_2.index t (0 : Fin 2) * 2000 + 1 * p.val = win2_2.index t (0 : Fin 2) * 2000 + p.val; omega
    | ⟨1, _⟩ => show win2_2.index t (1 : Fin 2) * 128 + 1 * q.val = q.val; omega
  refine (blockProduct2_apply (iblk2 V c 0 t) (iblk2 V c 1 t) p q).trans ?_
  show _ = Host.dotGeneral (F := Ideal) (φ₁ := .bf16) (φ₂ := .bf16) Cert.ReferenceIdeal.dot_S50000x128_S128x128_S50000x128_1_0_0_1_n_n none (V c main_v48) (V c main_v49) (((cfg2.win 2).blk t).view.emb (ix2 p q : S2000x128.Idx))
  rw [ho, wholeProduct_apply]
  exact Finset.sum_congr rfl fun k _ => by rw [hx k, hw k]

/-- An index of the output array is in point `t`'s block iff each coordinate is in the block's range on its axis. -/
theorem mem_block2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v50).slice (win2_2.rect t)).set ↔ _
  rw [View.set_slice_whole, Rect.mem_set_unit]
  exact Iff.rfl

/-- Row `i` of the output is in the block of the point whose block row is `i / 2000`: the 25 blocks fill the array. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blockOnto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

end RegionMatmul

/-- Region 0's output array ends holding the whole product of the two arrays the region finds. -/
theorem region0_value (c : Dev nD) :
    (dat0 (F := Ideal) V c).arrAt 2 cfg0.N
      = Host.dotGeneral (F := Ideal) (φ₁ := .bf16) (φ₂ := .bf16) Cert.ReferenceIdeal.dot_S50000x128_S128x128_S50000x128_1_0_0_1_n_n none (V c main_v30) (V c main_v31) :=
  (dat0 (F := Ideal) V c).arrAt_eq_of_cover 2 _ (fun t _ => RegionMatmul.flushed0_eq V c t) RegionMatmul.cover0

/-- Region 2's output array ends holding the whole product of the two arrays the region finds. -/
theorem region2_value (c : Dev nD) :
    (dat2 (F := Ideal) V c).arrAt 2 cfg2.N
      = Host.dotGeneral (F := Ideal) (φ₁ := .bf16) (φ₂ := .bf16) Cert.ReferenceIdeal.dot_S50000x128_S128x128_S50000x128_1_0_0_1_n_n none (V c main_v48) (V c main_v49) :=
  (dat2 (F := Ideal) V c).arrAt_eq_of_cover 2 _ (fun t _ => RegionMatmul.flushed2_eq V c t) RegionMatmul.cover2

end Cert.Gcn
end
-- ==== Proof.RegionBiasRelu.lean ====
/-
  The closed form of the two bias-and-clamp regions.

  Each of the two regions computes `max(raw + b, 0)` over `raw : [50000, 128]` in 25 row blocks of 2000 rows, with the
  bias `b : [1, 128]` staged whole at every grid point. A row block of `max(raw + b, 0)` is `max` of (the row block of
  `raw`) `+ b` and `0`: the bias row added to a row does not depend on which row it is, so the arithmetic on a block is
  the arithmetic on the whole array restricted to the block's rows. Element `(p, q)` of the block at block row `k` is
  element `(2000 k + p, q)` of the array; the 25 blocks tile the 50000 rows (row `r` lies in block `r / 2000`), so the
  array a region leaves is the layer's tail `biasRelu` of its two operand arrays, whatever those held at region entry.
-/
import proofs.«173843_j1975684956785_1_alg».proof.Proof.Gen.KernelIdeal.Frame
import proofs.«173843_j1975684956785_1_alg».proof.Proof.Spec
import Idealize.ShloMosaic.Lib.ValueIdx
import Idealize.ShloMosaic.Lib.ValueLayout
import Idealize.ShloMosaic.Lib.Pipeline.Value
noncomputable section
namespace Cert.Gcn
open Cert.KernelIdeal Cert.KernelIdeal.Gen Idealize.ShloMosaic Idealize.ShloMosaic.TcCoe Idealize.ShloMosaic.ValueIdx Idealize.SL.Sem
variable (V : (c : Dev nD) → (b : Ref sig .tc) → Buf (Elt Ideal) ((c : Thread nD τ).loc b))

/-- The two block offsets of a whole-buffer access are zero on both axes. -/
theorem zeroOffsets : (![0, 0] : Fin 2 → Nat) = fun _ => 0 := funext fun a => by fin_cases a <;> rfl

/-- The body's arithmetic at one element of a row block: the block's element plus the bias row's entry of the same
    column, clamped below at zero. The row of the bias does not depend on the element's row. -/
theorem blockTail_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) (Ideal.ofBits .f32 0x00000000#32) := by
  unfold k1_pay1
  show max ((shapeCast S2000x128 x0 _) (ix2 p q) + (broadcastTo S2000x128 (shapeCast S1x128 x1 _) _) (ix2 p q)) _ = _
  rw [shapeCast_self, shapeCast_self, broadcastTo_1b_ab_apply]
  rfl

/-- The layer's tail at one element of the whole array: the same formula, at row `P` of all 50000. -/
theorem biasRelu_apply (raw : FVec Ideal S50000x128 .f32) (b : FVec Ideal S1x128 .f32) (P : Fin 50000) (q : Fin 128) :
    biasRelu (F := Ideal) raw b (ix2 P q) = max (raw (ix2 P q) + b (ix2 (0 : Fin 1) q)) (Ideal.ofBits .f32 0x00000000#32) := by
  unfold biasRelu
  rw [maximumf_apply, addf_apply]
  rw [broadcastInDim_apply _ _ b (ix2 P q) (ix2 (0 : Fin 1) q) (fun a => by
        match a with
        | ⟨0, _⟩ => rfl
        | ⟨1, _⟩ => rfl)]
  rw [broadcastInDim_apply _ _ _ (ix2 P q) ix0 (fun a => a.elim0)]
  rfl

/-- A row block of the tail is the tail of the row block: if `x0` holds the elements of `raw` at the positions `e`
    (a block's positions in the array, which keep the column) and `x1` is the bias row itself, the body's arithmetic
    gives the layer's tail at the same positions. -/
theorem blockTail_eq (raw : FVec Ideal S50000x128 .f32) (b : FVec Ideal S1x128 .f32)
    (x0 : Vec Ideal S2000x128 .f32) (x1 : Vec Ideal S1x128 .f32) (e : S2000x128.Idx → S50000x128.Idx)
    (h0 : ∀ j, x0 j = raw (e j)) (h1 : x1 = b) (he : ∀ j, (e j 1).val = (j 1).val) :
    k1_pay1 (F := Ideal) x0 x1 = fun j => biasRelu (F := Ideal) raw b (e j) := by
  subst h1
  funext j
  obtain ⟨p, q, rfl⟩ : ∃ (p : Fin 2000) (q : Fin 128), j = ix2 p q := ⟨j 0, j 1, eq_ix2 j⟩
  obtain ⟨P, hP⟩ : ∃ P : Fin 50000, e (ix2 p q) = ix2 P q :=
    ⟨e (ix2 p q) 0, (eq_ix2 (e (ix2 p q))).trans (congrArg (ix2 (e (ix2 p q) 0)) (Fin.ext (he (ix2 p q))))⟩
  show k1_pay1 (F := Ideal) x0 x1 (ix2 p q) = biasRelu (F := Ideal) raw x1 (e (ix2 p q))
  rw [blockTail_apply, h0, hP, biasRelu_apply]

/-- The second bias-and-clamp region runs the same arithmetic on its blocks. -/
theorem blockTail3_eq (raw : FVec Ideal S50000x128 .f32) (b : FVec Ideal S1x128 .f32)
    (x0 : Vec Ideal S2000x128 .f32) (x1 : Vec Ideal S1x128 .f32) (e : S2000x128.Idx → S50000x128.Idx)
    (h0 : ∀ j, x0 j = raw (e j)) (h1 : x1 = b) (he : ∀ j, (e j 1).val = (j 1).val) :
    k3_pay1 (F := Ideal) x0 x1 = fun j => biasRelu (F := Ideal) raw b (e j) :=
  (show k3_pay1 (F := Ideal) x0 x1 = k1_pay1 (F := Ideal) x0 x1 from rfl).trans (blockTail_eq raw b x0 x1 e h0 h1 he)

/-! ## The first bias-and-clamp region -/

/-- The index maps of the three windows, decided once over the 25 grid points: the input block and the output block sit
    at the same block row, both in block column 0; the bias window stays at block (0, 0); the block row is below 25. -/
theorem idxFacts1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) < 25 :=
  (by decide +kernel : ∀ t : Fin grid1.N, _)

/-- Every block row below 25 is some grid point's. -/
theorem idxOnto1 : ∀ r : Fin 25, ∃ t : Fin cfg1.N, win1_2.index t = ![r.val, 0] :=
  (by decide +kernel : ∀ r : Fin 25, ∃ t : Fin grid1.N, win1_2.index t = ![r.val, 0])

/-- What grid point `t` writes back is block `t` of the layer's tail of the two operand arrays. -/
theorem flushed1_eq (c : Dev nD) (t : Fin cfg1.N) :
    (dat1 (F := Ideal) V c).flushed 2 t = ((cfg1.win 2).blk t).view.read (Elt Ideal) (biasRelu (F := Ideal) (V c main_v45) (V c main_v46)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S1x128) zeroOffsets]
  obtain ⟨e0, e1, e2, e3, e4, e5⟩ := idxFacts1 t
  -- an element of the input block is the array's element at block row × 2000 + the row inside the block
  have h0 : ∀ j : S2000x128.Idx, (iblk1 V c 0 t : Vec Ideal S2000x128 .f32) j = V c main_v45 (((cfg1.win 2).blk t).view.emb j) := by
    intro j
    show V c main_v45 (((cfg1.win 0).blk t).view.emb j) = V c main_v45 (((cfg1.win 2).blk t).view.emb j)
    refine congrArg (V c main_v45) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  -- the bias window's one block is the whole bias row
  have h1 : (iblk1 V c 1 t : Vec Ideal S1x128 .f32) = V c main_v46 := by
    funext y
    show V c main_v46 (((cfg1.win 1).blk t).view.emb y) = V c main_v46 y
    refine congrArg (V c main_v46) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  -- the output block keeps the column
  have he : ∀ j : S2000x128.Idx, ((((cfg1.win 2).blk t).view.emb j) 1).val = (j 1).val := by
    intro j
    show win1_2.index t (1 : Fin 2) * 128 + 1 * (j 1).val = (j 1).val
    omega
  exact blockTail_eq (V c main_v45) (V c main_v46) (iblk1 V c 0 t) (iblk1 V c 1 t) (((cfg1.win 2).blk t).view.emb) h0 h1 he

/-- An index of the array is in point `t`'s block iff each coordinate is in the block's range on its axis. -/
theorem memBlk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- The 25 row blocks tile the array: row `r` is in the block of the point whose block row is `r / 2000`. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idxOnto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [memBlk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The array region 1 leaves is the layer's tail of its two operand arrays. -/
theorem region1_value (c : Dev nD) :
    (dat1 (F := Ideal) V c).arrAt 2 cfg1.N = biasRelu (F := Ideal) (V c main_v45) (V c main_v46) :=
  (dat1 (F := Ideal) V c).arrAt_eq_of_cover 2 (biasRelu (F := Ideal) (V c main_v45) (V c main_v46)) (fun t _ => flushed1_eq V c t) covered1

/-! ## The second bias-and-clamp region -/

/-- The index maps of the three windows, decided once over the 25 grid points: the input block and the output block sit
    at the same block row, both in block column 0; the bias window stays at block (0, 0); the block row is below 25. -/
theorem idxFacts3 : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) < 25 :=
  (by decide +kernel : ∀ t : Fin grid3.N, _)

/-- Every block row below 25 is some grid point's. -/
theorem idxOnto3 : ∀ r : Fin 25, ∃ t : Fin cfg3.N, win3_2.index t = ![r.val, 0] :=
  (by decide +kernel : ∀ r : Fin 25, ∃ t : Fin grid3.N, win3_2.index t = ![r.val, 0])

/-- What grid point `t` writes back is block `t` of the layer's tail of the two operand arrays. -/
theorem flushed3_eq (c : Dev nD) (t : Fin cfg3.N) :
    (dat3 (F := Ideal) V c).flushed 2 t = ((cfg3.win 2).blk t).view.read (Elt Ideal) (biasRelu (F := Ideal) (V c main_v63) (V c main_v64)) := by
  show (cfg3.win 2).cut (grid3.coords t) ((dat3 V c).after 2 t) = _
  rw [after3_2]
  unfold out3_2
  rw [View.canon_unit_zero zeroOffsets]
  simp only [View.ld_unit_zero (S := S2000x128) zeroOffsets, View.ld_unit_zero (S := S1x128) zeroOffsets]
  obtain ⟨e0, e1, e2, e3, e4, e5⟩ := idxFacts3 t
  -- an element of the input block is the array's element at block row × 2000 + the row inside the block
  have h0 : ∀ j : S2000x128.Idx, (iblk3 V c 0 t : Vec Ideal S2000x128 .f32) j = V c main_v63 (((cfg3.win 2).blk t).view.emb j) := by
    intro j
    show V c main_v63 (((cfg3.win 0).blk t).view.emb j) = V c main_v63 (((cfg3.win 2).blk t).view.emb j)
    refine congrArg (V c main_v63) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  -- the bias window's one block is the whole bias row
  have h1 : (iblk3 V c 1 t : Vec Ideal S1x128 .f32) = V c main_v64 := by
    funext y
    show V c main_v64 (((cfg3.win 1).blk t).view.emb y) = V c main_v64 y
    refine congrArg (V c main_v64) (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  -- the output block keeps the column
  have he : ∀ j : S2000x128.Idx, ((((cfg3.win 2).blk t).view.emb j) 1).val = (j 1).val := by
    intro j
    show win3_2.index t (1 : Fin 2) * 128 + 1 * (j 1).val = (j 1).val
    omega
  exact blockTail3_eq (V c main_v63) (V c main_v64) (iblk3 V c 0 t) (iblk3 V c 1 t) (((cfg3.win 2).blk t).view.emb) h0 h1 he

/-- An index of the array is in point `t`'s block iff each coordinate is in the block's range on its axis. -/
theorem memBlk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v65).slice (win3_2.rect t)).set ↔ _
  rw [View.set_slice_whole, Rect.mem_set_unit]
  exact Iff.rfl

/-- The 25 row blocks tile the array: row `r` is in the block of the point whose block row is `r / 2000`. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idxOnto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [memBlk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The array region 3 leaves is the layer's tail of its two operand arrays. -/
theorem region3_value (c : Dev nD) :
    (dat3 (F := Ideal) V c).arrAt 2 cfg3.N = biasRelu (F := Ideal) (V c main_v63) (V c main_v64) :=
  (dat3 (F := Ideal) V c).arrAt_eq_of_cover 2 (biasRelu (F := Ideal) (V c main_v63) (V c main_v64)) (fun t _ => flushed3_eq V c t) covered3

end Cert.Gcn

end
-- ==== Proof.KernelValue.lean ====
/-
  The idealized kernel's result as one term of its six argument arrays.

  The program alternates stretches of host operations with four kernel regions. The contents of the buffers at each
  boundary are obtained from the previous boundary's: across a host stretch every operation's result buffer holds the
  operation's function of its operands' contents and every other buffer is unchanged; across a region the output array
  holds the region's closed form of its operand arrays (the whole matrix product for regions 0 and 2, the bias-and-clamp
  tail for regions 1 and 3) and every other buffer is unchanged. Reading the result buffer back through the eight
  boundaries gives two layers, each: the product of the layer's input and weight matrix (both first converted to the
  narrow format), the neighbourhood sum over the edge list with self-loops under the symmetric degree normalisation,
  and the tail over the bias reshaped to a row. The edge lists and the edge weights are computed once, before region 0,
  and reach both layers unchanged.
-/
import proofs.«173843_j1975684956785_1_alg».proof.Proof.Gen.KernelIdeal.Frame
import proofs.«173843_j1975684956785_1_alg».proof.Proof.Spec
import proofs.«173843_j1975684956785_1_alg».proof.Proof.RegionMatmul
import proofs.«173843_j1975684956785_1_alg».proof.Proof.RegionBiasRelu
import Idealize.ShloMosaic.Lib.StableHlo.Run

noncomputable section

namespace Cert.Gcn.KernelValue

open Cert.KernelIdeal Cert.KernelIdeal.Gen Idealize.ShloMosaic Idealize.ShloMosaic.TcCoe Idealize.SL.Sem Idealize.ShloMosaic.StableHlo

/-- A stretch read back one operation at a time: an operation read at its own result buffer is its function of its
    operands' contents, at any other buffer what was there. -/
macro "peel" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- One host stretch read back: the boundary after it, at a buffer, in terms of the boundary before it. The stretch's
    list and the boundary's definition are named per stretch, so that only that stretch is opened. -/
macro "stretch_a" : tactic => `(tactic| (simp only [W1, hostOps0]; after_results_simp; peel))
macro "stretch_1" : tactic => `(tactic| (simp only [W5, hostOps1]; after_results_simp; peel))
macro "stretch_2" : tactic => `(tactic| (simp only [W7, hostOps2]; after_results_simp; peel))
macro "stretch_3" : tactic => `(tactic| (simp only [W9, hostOps3]; after_results_simp; peel))

variable (m : (ℓ : Loc nD τ sig) → Buf (Elt Ideal) ℓ) (ρ : Dev nD → PrngReg) (c : Dev nD)

/-! ## The argument arrays, typed -/

abbrev argX : FVec Ideal S50000x128 .f32 := m ((c.tc : Thread nD τ).loc main_arg0)
abbrev argE : IVec S2x625000 32 := m ((c.tc : Thread nD τ).loc main_arg1)
abbrev argW1 : FVec Ideal S128x128 .f32 := m ((c.tc : Thread nD τ).loc main_arg2)
abbrev argB1 : FVec Ideal S128 .f32 := m ((c.tc : Thread nD τ).loc main_arg3)
abbrev argW2 : FVec Ideal S128x128 .f32 := m ((c.tc : Thread nD τ).loc main_arg4)
abbrev argB2 : FVec Ideal S128 .f32 := m ((c.tc : Thread nD τ).loc main_arg5)

/-- The product as the regions' closed forms state it: the host's product of two arrays held in the narrow format. -/
abbrev kdot (l : FVec Ideal S50000x128 .bf16) (r : FVec Ideal S128x128 .bf16) : FVec Ideal S50000x128 .f32 :=
  Host.dotGeneral (F := Ideal) (φ₁ := .bf16) (φ₂ := .bf16) Cert.ReferenceIdeal.dot_S50000x128_S128x128_S50000x128_1_0_0_1_n_n none l r

/-! ## Before region 0, stretch by stretch

The first stretch computes the edge lists and the degrees from the launch memory; the second is the call that selects
the reciprocal root where the degree is positive; the third computes the edge weights and converts the two operands of
the first product. The second and the third are read from an ARBITRARY starting valuation, then put after the stretch
before them. -/

set_option maxHeartbeats 1000000 in
theorem w1_v5 : W1 m ρ c (Proc.devRef .tc main_v5) = srcs (argE m c) := by
  stretch_a <;> rfl
set_option maxHeartbeats 1000000 in
theorem w1_v6 : W1 m ρ c (Proc.devRef .tc main_v6) = dsts (argE m c) := by
  stretch_a <;> rfl
set_option maxHeartbeats 1000000 in
theorem w1_v12 : W1 m ρ c (Proc.devRef .tc main_v12)
    = cmpf (F := Ideal) .ogt (deg (F := Ideal) (dsts (argE m c)))
        (broadcastInDim S50000 ![] Facts₀.bcast_S_S50000 (constant (F := Ideal) S_ .f32 0x00000000#32)) := by
  stretch_a <;> rfl
set_option maxHeartbeats 1000000 in
theorem w1_v13 : W1 m ρ c (Proc.devRef .tc main_v13) = Host.rsqrt (deg (F := Ideal) (dsts (argE m c))) := by
  stretch_a <;> rfl
set_option maxHeartbeats 1000000 in
theorem w1_cst2 : W1 m ρ c (Proc.devRef .tc main_cst_2) = constant (F := Ideal) S_ .f32 0x00000000#32 := by
  stretch_a <;> rfl
set_option maxHeartbeats 1000000 in
theorem w1_arg (b : Ref sig .tc) (hb : b = main_arg0 ∨ b = main_arg2 ∨ b = main_arg3 ∨ b = main_arg4 ∨ b = main_arg5) :
    W1 m ρ c (Proc.devRef .tc b) = m ((c.tc : Thread nD τ).loc b) := by
  rcases hb with rfl | rfl | rfl | rfl | rfl <;> (stretch_a <;> rfl)

section FromAnyValuation
variable (Wp : Valuation τ sig (Elt Ideal))

set_option maxHeartbeats 1000000 in
/-- The selecting call, from any contents: the reciprocal root where the mask is set, the broadcast scalar elsewhere. -/
theorem where_read : StableHlo.after hostOps0_1 Wp (Proc.devRef .tc main_v14)
    = select (Wp (Proc.devRef .tc main_v12) : IVec S50000 1) (Wp (Proc.devRef .tc main_v13) : FVec Ideal S50000 .f32)
        (broadcastInDim S50000 ![] Facts₀.bcast_S_S50000 (Wp (Proc.devRef .tc main_cst_2) : FVec Ideal S_ .f32)) := by
  simp only [hostOps0_1]; after_results_simp <;> peel <;> rfl
set_option maxHeartbeats 1000000 in
/-- The selecting call writes only its own three buffers. -/
theorem where_keep (b : Ref sig .tc) (hb : b = main_v5 ∨ b = main_v6 ∨ b = main_arg0 ∨ b = main_arg2 ∨ b = main_arg3 ∨ b = main_arg4 ∨ b = main_arg5) :
    StableHlo.after hostOps0_1 Wp (Proc.devRef .tc b) = Wp (Proc.devRef .tc b) := by
  rcases hb with rfl | rfl | rfl | rfl | rfl | rfl | rfl <;> (simp only [hostOps0_1]; after_results_simp <;> peel)
set_option maxHeartbeats 2000000 in
/-- The third stretch's edge weights, from any contents: the reciprocal roots gathered at the wrapped sources times
    those gathered at the wrapped destinations. -/
theorem norm_read : StableHlo.after hostOps0_2 Wp (Proc.devRef .tc main_v29)
    = mulf (F := Ideal) (φ := .f32)
        (Host.gather (α := Ideal .f32) gather_S50000_S675000x1_S675000_n_0_n_n_0_1_1 (Wp (Proc.devRef .tc main_v14))
          (wrap (Wp (Proc.devRef .tc main_v5))))
        (Host.gather (α := Ideal .f32) gather_S50000_S675000x1_S675000_n_0_n_n_0_1_1 (Wp (Proc.devRef .tc main_v14))
          (wrap (Wp (Proc.devRef .tc main_v6)))) := by
  simp only [hostOps0_2]; after_results_simp <;> peel <;> rfl
set_option maxHeartbeats 1000000 in
/-- The third stretch's two conversions, from any contents. -/
theorem convX_read : StableHlo.after hostOps0_2 Wp (Proc.devRef .tc main_v30)
    = truncf (F := Ideal) (s := S50000x128) (φ := .f32) .bf16 (Wp (Proc.devRef .tc main_arg0)) Facts₀.bitsLt_bf16_f32 := by
  simp only [hostOps0_2]; after_results_simp <;> peel <;> rfl
set_option maxHeartbeats 1000000 in
theorem convW_read : StableHlo.after hostOps0_2 Wp (Proc.devRef .tc main_v31)
    = truncf (F := Ideal) (s := S128x128) (φ := .f32) .bf16 (Wp (Proc.devRef .tc main_arg2)) Facts₀.bitsLt_bf16_f32 := by
  simp only [hostOps0_2]; after_results_simp <;> peel <;> rfl
set_option maxHeartbeats 1000000 in
/-- The third stretch leaves the edge lists and the later arguments as they were. -/
theorem third_keep (b : Ref sig .tc) (hb : b = main_v5 ∨ b = main_v6 ∨ b = main_arg3 ∨ b = main_arg4 ∨ b = main_arg5) :
    StableHlo.after hostOps0_2 Wp (Proc.devRef .tc b) = Wp (Proc.devRef .tc b) := by
  rcases hb with rfl | rfl | rfl | rfl | rfl <;> (simp only [hostOps0_2]; after_results_simp <;> peel)

end FromAnyValuation

theorem w2_v14 : W2 m ρ c (Proc.devRef .tc main_v14) = dinv (F := Ideal) (dsts (argE m c)) := by
  refine (where_read (W1 m ρ c)).trans ?_
  rw [w1_v12, w1_v13, w1_cst2]
  rfl
theorem w2_v5 : W2 m ρ c (Proc.devRef .tc main_v5) = srcs (argE m c) :=
  (where_keep (W1 m ρ c) main_v5 (by simp)).trans (w1_v5 m ρ c)
theorem w2_v6 : W2 m ρ c (Proc.devRef .tc main_v6) = dsts (argE m c) :=
  (where_keep (W1 m ρ c) main_v6 (by simp)).trans (w1_v6 m ρ c)
theorem w2_arg (b : Ref sig .tc) (hb : b = main_arg0 ∨ b = main_arg2 ∨ b = main_arg3 ∨ b = main_arg4 ∨ b = main_arg5) :
    W2 m ρ c (Proc.devRef .tc b) = m ((c.tc : Thread nD τ).loc b) :=
  (where_keep (W1 m ρ c) b (by rcases hb with rfl | rfl | rfl | rfl | rfl <;> simp)).trans (w1_arg m ρ c b hb)

theorem w3_v5 : W3 m ρ c (Proc.devRef .tc main_v5) = srcs (argE m c) :=
  (third_keep (W2 m ρ c) main_v5 (by simp)).trans (w2_v5 m ρ c)
theorem w3_v6 : W3 m ρ c (Proc.devRef .tc main_v6) = dsts (argE m c) :=
  (third_keep (W2 m ρ c) main_v6 (by simp)).trans (w2_v6 m ρ c)
theorem w3_v29 : W3 m ρ c (Proc.devRef .tc main_v29) = norm (F := Ideal) (srcs (argE m c)) (dsts (argE m c)) := by
  refine (norm_read (W2 m ρ c)).trans ?_
  rw [w2_v14, w2_v5, w2_v6]
  rfl
theorem w3_v30 : W3 m ρ c (Proc.devRef .tc main_v30) = truncf (F := Ideal) .bf16 (argX m c) Facts₀.bitsLt_bf16_f32 := by
  refine (convX_read (W2 m ρ c)).trans ?_
  rw [w2_arg m ρ c main_arg0 (by simp)]
theorem w3_v31 : W3 m ρ c (Proc.devRef .tc main_v31) = truncf (F := Ideal) .bf16 (argW1 m c) Facts₀.bitsLt_bf16_f32 := by
  refine (convW_read (W2 m ρ c)).trans ?_
  rw [w2_arg m ρ c main_arg2 (by simp)]
theorem w3_arg3 : W3 m ρ c (Proc.devRef .tc main_arg3) = argB1 m c :=
  (third_keep (W2 m ρ c) main_arg3 (by simp)).trans (w2_arg m ρ c main_arg3 (by simp))
theorem w3_arg4 : W3 m ρ c (Proc.devRef .tc main_arg4) = argW2 m c :=
  (third_keep (W2 m ρ c) main_arg4 (by simp)).trans (w2_arg m ρ c main_arg4 (by simp))
theorem w3_arg5 : W3 m ρ c (Proc.devRef .tc main_arg5) = argB2 m c :=
  (third_keep (W2 m ρ c) main_arg5 (by simp)).trans (w2_arg m ρ c main_arg5 (by simp))

/-! ## Region 0's exit -/

theorem w4_v32 : W4 m ρ c (Proc.devRef .tc main_v32)
    = kdot (truncf (F := Ideal) .bf16 (argX m c) Facts₀.bitsLt_bf16_f32) (truncf (F := Ideal) .bf16 (argW1 m c) Facts₀.bitsLt_bf16_f32) := by
  refine ((W4_arr m ρ c 2).trans (region0_value (V3 m ρ) c)).trans ?_
  show kdot (W3 m ρ c (Proc.devRef .tc main_v30)) (W3 m ρ c (Proc.devRef .tc main_v31)) = _
  rw [w3_v30, w3_v31]
theorem w4_v5 : W4 m ρ c (Proc.devRef .tc main_v5) = srcs (argE m c) :=
  (W4_of_ne m ρ c main_v5 (by decide)).trans (w3_v5 m ρ c)
theorem w4_v6 : W4 m ρ c (Proc.devRef .tc main_v6) = dsts (argE m c) :=
  (W4_of_ne m ρ c main_v6 (by decide)).trans (w3_v6 m ρ c)
theorem w4_v29 : W4 m ρ c (Proc.devRef .tc main_v29) = norm (F := Ideal) (srcs (argE m c)) (dsts (argE m c)) :=
  (W4_of_ne m ρ c main_v29 (by decide)).trans (w3_v29 m ρ c)
theorem w4_arg3 : W4 m ρ c (Proc.devRef .tc main_arg3) = argB1 m c :=
  (W4_of_ne m ρ c main_arg3 (by decide)).trans (w3_arg3 m ρ c)
theorem w4_arg4 : W4 m ρ c (Proc.devRef .tc main_arg4) = argW2 m c :=
  (W4_of_ne m ρ c main_arg4 (by decide)).trans (w3_arg4 m ρ c)
theorem w4_arg5 : W4 m ρ c (Proc.devRef .tc main_arg5) = argB2 m c :=
  (W4_of_ne m ρ c main_arg5 (by decide)).trans (w3_arg5 m ρ c)

/-! ## Region 1's entry: the first neighbourhood sum and the first bias as a row -/

set_option maxRecDepth 65536 in
set_option maxHeartbeats 4000000 in
theorem w5_v45 : W5 m ρ c (Proc.devRef .tc main_v45)
    = aggregate (F := Ideal) (W4 m ρ c (Proc.devRef .tc main_v32)) (W4 m ρ c (Proc.devRef .tc main_v5))
        (W4 m ρ c (Proc.devRef .tc main_v6)) (W4 m ρ c (Proc.devRef .tc main_v29)) := by
  stretch_1 <;> rfl
set_option maxHeartbeats 1000000 in
theorem w5_v46 : W5 m ρ c (Proc.devRef .tc main_v46) = shapeCast S1x128 (W4 m ρ c (Proc.devRef .tc main_arg3)) Facts₀.shapeCasts_S128_S1x128 := by
  stretch_1 <;> rfl
set_option maxHeartbeats 1000000 in
theorem w5_keep (b : Ref sig .tc) (hb : b = main_v5 ∨ b = main_v6 ∨ b = main_v29 ∨ b = main_arg4 ∨ b = main_arg5) :
    W5 m ρ c (Proc.devRef .tc b) = W4 m ρ c (Proc.devRef .tc b) := by
  rcases hb with rfl | rfl | rfl | rfl | rfl <;> (stretch_1)

/-! ## Region 1's exit -/

theorem w6_v47 : W6 m ρ c (Proc.devRef .tc main_v47)
    = biasRelu (F := Ideal) (W5 m ρ c (Proc.devRef .tc main_v45)) (W5 m ρ c (Proc.devRef .tc main_v46)) :=
  (W6_arr m ρ c 2).trans (region1_value (V5 m ρ) c)

/-! ## Region 2's entry: the first layer's result and the second weight matrix, converted -/

set_option maxHeartbeats 1000000 in
theorem w7_v48 : W7 m ρ c (Proc.devRef .tc main_v48)
    = truncf (F := Ideal) (s := S50000x128) (φ := .f32) .bf16 (W6 m ρ c (Proc.devRef .tc main_v47)) Facts₀.bitsLt_bf16_f32 := by
  stretch_2 <;> rfl
set_option maxHeartbeats 1000000 in
theorem w7_v49 : W7 m ρ c (Proc.devRef .tc main_v49)
    = truncf (F := Ideal) (s := S128x128) (φ := .f32) .bf16 (W6 m ρ c (Proc.devRef .tc main_arg4)) Facts₀.bitsLt_bf16_f32 := by
  stretch_2 <;> rfl
set_option maxHeartbeats 1000000 in
theorem w7_keep (b : Ref sig .tc) (hb : b = main_v5 ∨ b = main_v6 ∨ b = main_v29 ∨ b = main_arg5) :
    W7 m ρ c (Proc.devRef .tc b) = W6 m ρ c (Proc.devRef .tc b) := by
  rcases hb with rfl | rfl | rfl | rfl <;> (stretch_2)

/-! ## Region 2's exit -/

theorem w8_v50 : W8 m ρ c (Proc.devRef .tc main_v50)
    = kdot (W7 m ρ c (Proc.devRef .tc main_v48)) (W7 m ρ c (Proc.devRef .tc main_v49)) :=
  (W8_arr m ρ c 2).trans (region2_value (V7 m ρ) c)

/-- The edge lists, the edge weights and the last bias reach region 3's stretch as region 0 found them: no stretch
    and no region in between writes them. -/
theorem w8_v5 : W8 m ρ c (Proc.devRef .tc main_v5) = srcs (argE m c) :=
  (W8_of_ne m ρ c main_v5 (by decide)).trans ((w7_keep m ρ c main_v5 (by simp)).trans ((W6_of_ne m ρ c main_v5 (by decide)).trans ((w5_keep m ρ c main_v5 (by simp)).trans (w4_v5 m ρ c))))
theorem w8_v6 : W8 m ρ c (Proc.devRef .tc main_v6) = dsts (argE m c) :=
  (W8_of_ne m ρ c main_v6 (by decide)).trans ((w7_keep m ρ c main_v6 (by simp)).trans ((W6_of_ne m ρ c main_v6 (by decide)).trans ((w5_keep m ρ c main_v6 (by simp)).trans (w4_v6 m ρ c))))
theorem w8_v29 : W8 m ρ c (Proc.devRef .tc main_v29) = norm (F := Ideal) (srcs (argE m c)) (dsts (argE m c)) :=
  (W8_of_ne m ρ c main_v29 (by decide)).trans ((w7_keep m ρ c main_v29 (by simp)).trans ((W6_of_ne m ρ c main_v29 (by decide)).trans ((w5_keep m ρ c main_v29 (by simp)).trans (w4_v29 m ρ c))))
theorem w8_arg5 : W8 m ρ c (Proc.devRef .tc main_arg5) = argB2 m c :=
  (W8_of_ne m ρ c main_arg5 (by decide)).trans ((w7_keep m ρ c main_arg5 (by simp)).trans ((W6_of_ne m ρ c main_arg5 (by decide)).trans ((w5_keep m ρ c main_arg5 (by simp)).trans (w4_arg5 m ρ c))))
theorem w6_arg4 : W6 m ρ c (Proc.devRef .tc main_arg4) = argW2 m c :=
  (W6_of_ne m ρ c main_arg4 (by decide)).trans ((w5_keep m ρ c main_arg4 (by simp)).trans (w4_arg4 m ρ c))

/-! ## Region 3's entry: the second neighbourhood sum and the second bias as a row -/

set_option maxRecDepth 65536 in
set_option maxHeartbeats 4000000 in
theorem w9_v63 : W9 m ρ c (Proc.devRef .tc main_v63)
    = aggregate (F := Ideal) (W8 m ρ c (Proc.devRef .tc main_v50)) (W8 m ρ c (Proc.devRef .tc main_v5))
        (W8 m ρ c (Proc.devRef .tc main_v6)) (W8 m ρ c (Proc.devRef .tc main_v29)) := by
  stretch_3 <;> rfl
set_option maxHeartbeats 1000000 in
theorem w9_v64 : W9 m ρ c (Proc.devRef .tc main_v64) = shapeCast S1x128 (W8 m ρ c (Proc.devRef .tc main_arg5)) Facts₀.shapeCasts_S128_S1x128 := by
  stretch_3 <;> rfl

/-! ## Region 3's exit: the result -/

theorem w10_v65 : W10 m ρ c (Proc.devRef .tc main_v65)
    = biasRelu (F := Ideal) (W9 m ρ c (Proc.devRef .tc main_v63)) (W9 m ρ c (Proc.devRef .tc main_v64)) :=
  (W10_arr m ρ c 2).trans (region3_value (V9 m ρ) c)

/-! ## The result as one term of the arguments -/

/-- The kernel's two layers: each the product of the operands held in the narrow format, the neighbourhood sum, and the
    tail over the bias reshaped to a row. -/
def kernelTerm (x : FVec Ideal S50000x128 .f32) (e : IVec S2x625000 32) (W1 : FVec Ideal S128x128 .f32) (b1 : FVec Ideal S128 .f32)
    (W2 : FVec Ideal S128x128 .f32) (b2 : FVec Ideal S128 .f32) : FVec Ideal S50000x128 .f32 :=
  biasRelu (F := Ideal)
    (aggregate (F := Ideal)
      (kdot (truncf (F := Ideal) .bf16
          (biasRelu (F := Ideal)
            (aggregate (F := Ideal) (kdot (truncf (F := Ideal) .bf16 x Facts₀.bitsLt_bf16_f32) (truncf (F := Ideal) .bf16 W1 Facts₀.bitsLt_bf16_f32))
              (srcs e) (dsts e) (norm (F := Ideal) (srcs e) (dsts e)))
            (shapeCast S1x128 b1 Facts₀.shapeCasts_S128_S1x128))
          Facts₀.bitsLt_bf16_f32)
        (truncf (F := Ideal) .bf16 W2 Facts₀.bitsLt_bf16_f32))
      (srcs e) (dsts e) (norm (F := Ideal) (srcs e) (dsts e)))
    (shapeCast S1x128 b2 Facts₀.shapeCasts_S128_S1x128)

/-- The result buffer at the last boundary is the kernel's two layers of the argument arrays. -/
theorem value : W10 m ρ c (Proc.devRef .tc main_v65)
    = kernelTerm (argX m c) (argE m c) (argW1 m c) (argB1 m c) (argW2 m c) (argB2 m c) := by
  rw [w10_v65, w9_v63, w9_v64, w8_v50, w8_v5, w8_v6, w8_v29, w8_arg5, w7_v48, w7_v49, w6_v47, w6_arg4, w5_v45, w5_v46,
    w4_v32, w4_v5, w4_v6, w4_v29, w4_arg3]
  rfl

end Cert.Gcn.KernelValue
end
-- ==== Proof.Bridge.lean ====
/-
  The reference's result, and the two spellings of a layer.

  The reference computes, on the host, two layers over the same edge list: its result is `encoder` of the six argument
  arrays, the composition of the operations its run applies. It names its dimension records in its own namespace; they
  are the records the kernel's program names, field by field.
  The kernel hands its bias to the tail as the vector `[128]` reshaped to `[1, 128]`; the reference as the vector
  laid along the second axis of a one-row array. Both read, at `(0, i)`, the vector's entry `i`.
-/
import proofs.«173843_j1975684956785_1_alg».proof.Proof.Spec
import proofs.«173843_j1975684956785_1_alg».proof.Proof.RefRun
import Idealize.ShloMosaic.Lib.ValueIdx
import Idealize.ShloMosaic.Lib.ValueLayout
import Idealize.ShloMosaic.Lib.Pipeline.Value

noncomputable section
namespace Cert.Gcn
open Cert.KernelIdeal Idealize.ShloMosaic Idealize.ShloMosaic.TcCoe Idealize.ShloMosaic.ValueIdx Idealize.SL.Sem

/-! ## The two programs' dimension records are the same records -/

theorem gatherNode_eq : Cert.ReferenceIdeal.gather_S50000_S675000x1_S675000_n_0_n_n_0_1_1 = gather_S50000_S675000x1_S675000_n_0_n_n_0_1_1 := rfl
theorem gatherRow_eq : Cert.ReferenceIdeal.gather_S50000x128_S675000x1_S675000x128_1_0_n_n_0_1_1128 = gather_S50000x128_S675000x1_S675000x128_1_0_n_n_0_1_1128 := rfl
theorem scatterNode_eq : Cert.ReferenceIdeal.scatter_S50000_S675000x1_S675000_n_0_0_1 = scatter_S50000_S675000x1_S675000_n_0_0_1 := rfl
theorem scatterRow_eq : Cert.ReferenceIdeal.scatter_S50000x128_S675000x1_S675000x128_1_0_0_1 = scatter_S50000x128_S675000x1_S675000x128_1_0_0_1 := rfl

/-! ## The reference's result is the two layers -/

set_option maxRecDepth 65536 in
set_option maxHeartbeats 4000000 in
theorem ref_eq (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v95 (F := Ideal) m' c
      = encoder (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  unfold Cert.ReferenceIdeal.ValueP.res_main_v95
  simp only [gatherNode_eq, gatherRow_eq, scatterNode_eq, scatterRow_eq]
  rfl

/-! ## The bias as a row -/

/-- A vector `[128]` reshaped to `[1, 128]` is the vector laid along the second axis of a one-row array. -/
theorem biasRow_eq (b : FVec Ideal S128 .f32) :
    shapeCast S1x128 b Facts₀.shapeCasts_S128_S1x128
      = broadcastInDim S1x128 ![1] Cert.ReferenceIdeal.Facts₀.bcast_S128_S1x128_1 b := by
  funext j
  obtain ⟨u, i, rfl⟩ : ∃ (u : Fin 1) (i : Fin 128), j = ix2 u i := ⟨j 0, j 1, eq_ix2 j⟩
  refine (shapeCast_a_1a_apply b Facts₀.shapeCasts_S128_S1x128 u i).trans ?_
  exact (broadcastInDim_apply ![1] Cert.ReferenceIdeal.Facts₀.bcast_S128_S1x128_1 b (ix2 u i) (ix1 i) (fun a => by
    match a with
    | ⟨0, _⟩ => rfl)).symm

end Cert.Gcn
end
-- ==== Proof.lean ====
/-
  The certificate: a two-layer graph-convolution encoder, four kernel regions among host operations, against its
  host-only reference.

  Per layer the kernel multiplies the node features by the weight matrix on the matrix unit, one block of 2000 rows at a
  time and with both operands first converted to the narrow float format; gathers, scales and scatter-adds the rows along
  the edge list (with a self-loop per node, under the symmetric degree normalisation) on the host; and adds the bias row
  and clamps below at zero in a second kernel, again by blocks of 2000 rows. The reference does all of it on the host.
  At the ideal values a change of float format is the identity and the matrix unit's product into a zero accumulator is
  the host's product, the same sum over the contracted axis; a row block of a product, and of a row-wise tail, is the
  product, and the tail, of the row block. So each region leaves in its output array the whole-array function the
  reference applies at that place, and the two programs are the same composition of the same host functions: the
  neighbourhood sum, the edge lists and the edge weights are carried as names and never opened. No law of arithmetic
  on the extended reals is used, so the inputs' finiteness is not needed.
  The idealization rewrote no operation, so there is nothing to preserve.
-/
import proofs.«173843_j1975684956785_1_alg».proof.Defs
import proofs.«173843_j1975684956785_1_alg».proof.Proof.Gen.Kernel
import proofs.«173843_j1975684956785_1_alg».proof.Proof.Gen.Kernel.Frame
import proofs.«173843_j1975684956785_1_alg».proof.Proof.Gen.KernelIdeal
import proofs.«173843_j1975684956785_1_alg».proof.Proof.Gen.KernelIdeal.Frame
import proofs.«173843_j1975684956785_1_alg».proof.Proof.Gen.ReferenceIdeal
import proofs.«173843_j1975684956785_1_alg».proof.Proof.Gen.Pre_finite_inputs
import proofs.«173843_j1975684956785_1_alg».proof.Proof.RefRun
import proofs.«173843_j1975684956785_1_alg».proof.Proof.KernelRun
import proofs.«173843_j1975684956785_1_alg».proof.Proof.KernelValue
import proofs.«173843_j1975684956785_1_alg».proof.Proof.Bridge

noncomputable section

namespace Cert.Proof

open Idealize.ShloMosaic Idealize.ShloMosaic.TcCoe Idealize.SL.Sem
open Cert.Gcn Cert.Gcn.KernelValue

/-- The kernel's spelling of the two layers is the reference's: the product of the converted operands is the product
    (a change of format is the identity at the ideal values), and the bias reshaped to a row is the bias laid along a
    row. -/
theorem kernelTerm_eq (x : FVec Ideal Cert.KernelIdeal.S50000x128 .f32) (e : IVec Cert.KernelIdeal.S2x625000 32)
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32) :
    kernelTerm x e W1 b1 W2 b2 = encoder (F := Ideal) x e W1 b1 W2 b2 := by
  unfold kernelTerm encoder layer
  rw [biasRow_eq b1, biasRow_eq b2]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the two layers of their argument arrays in the result buffer, and the argument arrays
    agree. -/
theorem algebraic : Cert.algebraic_KernelIdeal_ReferenceIdeal := by
  intro m ρ m' ρ' _ hagree
  refine ⟨fun c => encoder (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.Gcn.KernelRun.run (F := Ideal) m ρ)
    exact (value m ρ c).trans (kernelTerm_eq _ _ _ _ _ _)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := hagree c
    rw [ref_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
